-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn_part1 {F : FTy → Type} [FloatOps F] (main_v13 : IVec S_ 1) (main_v16 : IVec S2x2048x2048 1) : IVec S_ 1 :=
  let main_c_5 : IVec S_ 1 := constantI S_ 1 1#1
  let main_v17 : IVec S_ 1 := (fun x v => Host.reduce IntOp.andi x v reducesTo_S2x2048x2048_S_d0_1_2 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x2048x2048 .f32 := Host.absf main_arg3
  let main_cst_4 : FVec F S_ .f32 := constant S_ .f32 0x7F800000#32
  let main_v15 : FVec F S2x2048x2048 .f32 := broadcastInDim S2x2048x2048 ![] bcast_S_S2x2048x2048 main_cst_4
  let main_v16 : IVec S2x2048x2048 1 := cmpf .olt main_v14 main_v15
  fn_part1 (F := F) main_v13 main_v16
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x1x1024x64 : Shape := ⟨4, ![1, 1, 1024, 64]⟩
abbrev S1x1x2048x64 : Shape := ⟨4, ![1, 1, 2048, 64]⟩
abbrev S1x1024x2048 : Shape := ⟨3, ![1, 1024, 2048]⟩
abbrev S1x1x1024x2048 : Shape := ⟨4, ![1, 1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .f32⟩
  | .hbm, ⟨4, _⟩ => ⟨S2x16x2048x64, .f32⟩
  | .hbm, ⟨5, _⟩ => ⟨S2x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1024x2048, .f32⟩
  | .local _ .vmem, ⟨7, _⟩ => ⟨S1x1024x2048, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S2x2048x2048.size a
  hwx0_3 : ∀ i : grid0.Coords, EltTy.bits .f32 = 32 ∨ (Rect.block (s := S2x2048x2048) S1x1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x16x2048x64.size a
  hwx0_4 : ∀ i : grid0.Coords, EltTy.bits .f32 = 32 ∨ (Rect.block (s := S2x16x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x1x2048x2048, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Scaled, masked dot-product attention on the extended reals, written index by index.

  For a batch `b`, a head `h` and a query row `r`, the logit against key `e` is
  `(∑ⱼ Q[b,h,r,j] · K[b,h,e,j]) · s · M[b,r,e]` with `s` the scale; the row's weights are the softmax of its logits,
  taken the stable way (the row's maximum subtracted before the exponential), and the output entry `(b,h,r,d)` is
  `∑ₑ weight[e] · V[b,h,e,d]`.

  The softmax of a row is stated once, as a function of the row of logits (`rowSoftmax`), so that two programs
  agree on it as soon as they agree on the row.  The scale enters in two spellings — a product with the pattern of
  `1/8`, a quotient by the square root of the pattern of `64` — which are the same function of an extended real
  (`scale_eq`): `√64 = 8`, and a quotient by a nonzero real is the product with its reciprocal at the infinities too.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## The scale, in its two spellings -/

/-- The pattern `0x3E000000` denotes `1/8`. -/
theorem ofBits_eighth : Ideal.ofBits .f32 0x3E000000#32 = ((1 / 8 : ℝ) : EReal) := by
  simp [Ideal.ofBits, Ideal.ieee, -EReal.coe_mul]; norm_num

/-- The pattern `0x42800000` denotes `64`. -/
theorem ofBits_64 : Ideal.ofBits .f32 0x42800000#32 = ((64 : ℝ) : EReal) := by
  simp [Ideal.ofBits, Ideal.ieee, -EReal.coe_mul]; norm_num

/-- `√64 = 8`. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 * 8 by norm_num, Real.sqrt_mul_self (by norm_num)]
  rw [h]

/-- The product with `1/8` is the quotient by `√64`, on every extended real. -/
theorem scale_eq (x : EReal) :
    x * Ideal.ofBits .f32 0x3E000000#32 = Ideal.div x (Ideal.sqrt (Ideal.ofBits .f32 0x42800000#32)) := by
  rw [ofBits_eighth, ofBits_64, sqrt_64, Ideal.div_coe (by norm_num : (8 : ℝ) ≠ 0)]

/-! ## The softmax of a row -/

/-- The maximum of a row, taken from a starting value `b`. -/
def rowMax {n : ℕ} (b : EReal) (f : Fin n → EReal) : EReal := (Finset.univ : Finset (Fin n)).fold max b f

/-- The starting value is below the maximum taken from it. -/
theorem le_rowMax {n : ℕ} (b : EReal) (f : Fin n → EReal) : b ≤ rowMax b f :=
  (Finset.le_fold_max b).mpr (Or.inl le_rfl)

/-- So taking the maximum with the starting value once more changes nothing. -/
theorem max_rowMax {n : ℕ} (b : EReal) (f : Fin n → EReal) : max b (rowMax b f) = rowMax b f :=
  max_eq_right (le_rowMax b f)

/-- The exponential of an entry less the row's maximum. -/
def rowExp {n : ℕ} (b : EReal) (f : Fin n → EReal) (e : Fin n) : EReal := Ideal.exp (f e - rowMax b f)

/-- The softmax of a row at `e`: the shifted exponential over the sum of the row's shifted exponentials. -/
def rowSoftmax {n : ℕ} (b : EReal) (f : Fin n → EReal) (e : Fin n) : EReal :=
  Ideal.div (rowExp b f e) (∑ e' : Fin n, rowExp b f e')

/-! ## Attention, index by index -/

/-- The value the row maxima start from: what the pattern of `-∞` denotes. -/
abbrev start : EReal := Ideal.ofBits .f32 0xFF800000#32

/-- The logit of query row `r` against key `e` in batch `b`, head `h`. -/
def logit (Q K : (⟨4, ![2, 16, 2048, 64]⟩ : Shape).Idx → EReal) (M : (⟨3, ![2, 2048, 2048]⟩ : Shape).Idx → EReal)
    (b : Fin 2) (h : Fin 16) (r e : Fin 2048) : EReal :=
  (∑ j : Fin 64, Q (ix4 b h r j) * K (ix4 b h e j)) * Ideal.ofBits .f32 0x3E000000#32 * M (ix3 b r e)

/-- The attention weight of key `e` for query row `r`. -/
def weight (Q K : (⟨4, ![2, 16, 2048, 64]⟩ : Shape).Idx → EReal) (M : (⟨3, ![2, 2048, 2048]⟩ : Shape).Idx → EReal)
    (b : Fin 2) (h : Fin 16) (r e : Fin 2048) : EReal :=
  rowSoftmax start (logit Q K M b h r) e

/-- The attended value: the weights of row `r` against column `d` of `V`. -/
def attended (Q K V : (⟨4, ![2, 16, 2048, 64]⟩ : Shape).Idx → EReal) (M : (⟨3, ![2, 2048, 2048]⟩ : Shape).Idx → EReal)
    (b : Fin 2) (h : Fin 16) (r : Fin 2048) (d : Fin 64) : EReal :=
  ∑ e : Fin 2048, weight Q K M b h r e * V (ix4 b h e d)

/-- The array of weights. -/
def scores (Q K : (⟨4, ![2, 16, 2048, 64]⟩ : Shape).Idx → EReal) (M : (⟨3, ![2, 2048, 2048]⟩ : Shape).Idx → EReal) :
    (⟨4, ![2, 16, 2048, 2048]⟩ : Shape).Idx → EReal :=
  fun i => weight Q K M (i 0) (i 1) (i 2) (i 3)

/-- The array of attended values. -/
def outputs (Q K V : (⟨4, ![2, 16, 2048, 64]⟩ : Shape).Idx → EReal) (M : (⟨3, ![2, 2048, 2048]⟩ : Shape).Idx → EReal) :
    (⟨4, ![2, 16, 2048, 64]⟩ : Shape).Idx → EReal :=
  fun i => attended Q K V M (i 0) (i 1) (i 2) (i 3)

theorem scores_ix (Q K : (⟨4, ![2, 16, 2048, 64]⟩ : Shape).Idx → EReal) (M : (⟨3, ![2, 2048, 2048]⟩ : Shape).Idx → EReal)
    (b : Fin 2) (h : Fin 16) (r e : Fin 2048) : scores Q K M (ix4 b h r e) = weight Q K M b h r e := rfl

theorem outputs_ix (Q K V : (⟨4, ![2, 16, 2048, 64]⟩ : Shape).Idx → EReal) (M : (⟨3, ![2, 2048, 2048]⟩ : Shape).Idx → EReal)
    (b : Fin 2) (h : Fin 16) (r : Fin 2048) (d : Fin 64) : outputs Q K V M (ix4 b h r d) = attended Q K V M b h r d := rfl

end Cert.Attn

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.LibLeadingUnits.lean ====
/-
  A shape cast that drops, or inserts, TWO leading unit axes, read at an index written by its coordinates, over
  abstract extents: the block of a rank-4 array cut to one batch and one head is the matrix of its last two axes.

  * a `[1, 1, a, b]` array cast to `[a, b]` reads, at `(p, q)`, the operand at `(0, 0, p, q)`;
  * an `[a, b]` array cast to `[1, 1, a, b]` reads, at `(u, v, p, q)`, the operand at `(p, q)`.

  Both are the row-major position equation of a shape cast: the two unit coordinates contribute nothing to it.
-/
import Idealize.ShloMosaic.Lib.ValueIdx
import Idealize.ShloMosaic.Lib.Pipeline.Value

noncomputable section

namespace Cert.LibLeadingUnits

open Idealize.ShloMosaic Idealize.ShloMosaic.ValueIdx

variable {α : Type}

/-- A `[1, 1, a, b]` array cast to `[a, b]` reads, at `(p, q)`, the operand at `(0, 0, p, q)`. -/
theorem cast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `[a, b]` array cast to `[1, 1, a, b]` reads, at `(u, v, p, q)`, the operand at `(p, q)`, whatever the two
    unit coordinates. -/
theorem cast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]
    simp)

end Cert.LibLeadingUnits

end
-- ==== Proof.Payload.lean ====
/-
  What the kernel's body computes from its four loaded blocks, read at an index written by its coordinates.

  A grid point works on one batch, one head and one tile of 1024 query rows: `P0` is the tile of `Q`
  (`[1,1,1024,64]`), `P1` and `P3` are the whole `K` and `V` of that head (`[1,1,2048,64]`), `P2` the tile of the mask
  (`[1,1024,2048]`).  The body forms the logits `(∑ⱼ P0[p,j] · P1[e,j]) · (1/8) · P2[p,e]` — a matrix product of rows
  against rows into a zero accumulator —, takes each row's maximum and subtracts it, exponentiates, sums each row,
  and divides: the weight block is the softmax of each row of logits (`pay1_at`).  The output block is the matrix
  product of the weights with `P3` into zero: `∑ₑ weight[p,e] · P3[e,d]` (`pay3_at`).

  The row maximum is a fold of `max` over the row from the value of `-∞`'s pattern, the row sum a plain sum over
  the row; a column `[1024,1]` spread along the rows reads, at `(p,e)`, the column's entry `p`.
-/
import proofs.«169565_j69466801045769_2_alg».proof.Proof.Gen.KernelIdeal.Skeleton
import proofs.«169565_j69466801045769_2_alg».proof.Proof.Attention
import proofs.«169565_j69466801045769_2_alg».proof.Proof.LibRowwise
import proofs.«169565_j69466801045769_2_alg».proof.Proof.LibDotRows
import proofs.«169565_j69466801045769_2_alg».proof.Proof.LibLeadingUnits
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Attn
open Cert.LibLeadingUnits

/-! ## Where the two matrix products send an index -/

theorem qk_l0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl

theorem qk_l1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q

theorem qk_r0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

theorem qk_r1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

theorem pv_l0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

theorem pv_l1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q

theorem pv_r0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q

theorem pv_r1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-! ## The logits of a tile -/

/-- The logit of the tile's row `p` against key `e`, from the blocks. -/
def blockLogit (P0 : Vec Ideal S1x1x1024x64 .f32) (P1 : Vec Ideal S1x1x2048x64 .f32) (P2 : Vec Ideal S1x1024x2048 .f32)
    (p : Fin 1024) (e : Fin 2048) : EReal :=
  (∑ j : Fin 64, P0 (ix4 (0 : Fin 1) (0 : Fin 1) p j) * P1 (ix4 (0 : Fin 1) (0 : Fin 1) e j))
    * Ideal.ofBits .f32 0x3E000000#32 * P2 (ix3 (0 : Fin 1) p e)

/-- The body's vector of logits: the product of rows against rows, scaled, masked. -/
def logits (P0 : Vec Ideal S1x1x1024x64 .f32) (P1 : Vec Ideal S1x1x2048x64 .f32) (P2 : Vec Ideal S1x1024x2048 .f32) :
    FVec Ideal S1024x2048 .f32 :=
  have q : FVec Ideal S1024x64 .f32 := shapeCast S1024x64 P0 shapeCasts_S1x1x1024x64_S1024x64
  have k : FVec Ideal S2048x64 .f32 := shapeCast S2048x64 P1 shapeCasts_S1x1x2048x64_S2048x64
  have zero : FVec Ideal S1024x2048 .f32 := constant S1024x2048 .f32 0x00000000#32
  have qk : FVec Ideal S1024x2048 .f32 := matmul dot_S1024x64_S2048x64_S1024x2048_1_1_0_0_n_n none q k zero
  have scale : Ideal .f32 := Scalar.ofBits .f32 0x3E000000#32
  have scaled : FVec Ideal S1024x2048 .f32 := mulf qk (broadcast S1024x2048 scale)
  have mask : FVec Ideal S1024x2048 .f32 := shapeCast S1024x2048 P2 shapeCasts_S1x1024x2048_S1024x2048
  mulf scaled mask

/-- The product of rows against rows into zero, at `(p, e)`. -/
theorem qk_at (A : FVec Ideal S1024x64 .f32) (B : FVec Ideal S2048x64 .f32) (p : Fin 1024) (e : Fin 2048) :
    (matmul dot_S1024x64_S2048x64_S1024x2048_1_1_0_0_n_n none A B (constant S1024x2048 .f32 0x00000000#32) :
        FVec Ideal S1024x2048 .f32) (ix2 p e)
      = ∑ j : Fin 64, A (ix2 p j) * B (ix2 e j) :=
  Cert.LibDotRows.matmul_zero_rows_apply dot_S1024x64_S2048x64_S1024x2048_1_1_0_0_n_n rfl rfl qk_l0 qk_l1 qk_r0 qk_r1 none A B p e

theorem logits_at (P0 : Vec Ideal S1x1x1024x64 .f32) (P1 : Vec Ideal S1x1x2048x64 .f32) (P2 : Vec Ideal S1x1024x2048 .f32)
    (p : Fin 1024) (e : Fin 2048) : logits P0 P1 P2 (ix2 p e) = blockLogit P0 P1 P2 p e := by
  have h1 := (qk_at (shapeCast S1024x64 P0 shapeCasts_S1x1x1024x64_S1024x64)
      (shapeCast S2048x64 P1 shapeCasts_S1x1x2048x64_S2048x64) p e).trans
    (Finset.sum_congr rfl fun j _ => by rw [cast_11ab_ab_apply, cast_11ab_ab_apply])
  have h2 : (shapeCast S1024x2048 P2 shapeCasts_S1x1024x2048_S1024x2048 : FVec Ideal S1024x2048 .f32) (ix2 p e)
      = P2 (ix3 (0 : Fin 1) p e) :=
    shapeCast_1ab_ab_apply P2 shapeCasts_S1x1024x2048_S1024x2048 p e
  exact congrArg₂ (fun a c => a * Ideal.ofBits .f32 0x3E000000#32 * c) h1 h2

/-! ## The softmax of the rows of a tile -/

/-- A column spread along the rows reads, at `(p, e)`, the column's entry `p`. -/
theorem column_at (v : FVec Ideal S1024 .f32) (p : Fin 1024) (e : Fin 2048) :
    broadcastTo S1024x2048 (shapeCast S1024x1 v shapeCasts_S1024_S1024x1) broadcasts_S1024x1_S1024x2048 (ix2 p e) = v (ix1 p) :=
  (Cert.LibRowwise.broadcastTo_a1_ab_apply _ broadcasts_S1024x1_S1024x2048 p e).trans
    (Cert.LibRowwise.shapeCast_a_a1_apply v shapeCasts_S1024_S1024x1 p 0)

/-- A row's maximum, from the value of `-∞`'s pattern. -/
theorem rowMax_at (s : FVec Ideal S1024x2048 .f32) (p : Fin 1024) :
    multiReduction .maximumf [1] S1024 s 0xFF800000#32 reduces_S1024x2048_S1024 (.inl rfl) rfl (ix1 p)
      = rowMax start (fun e => s (ix2 p e)) :=
  (Ideal.multiReduction_maximumf_single s 0xFF800000#32 reduces_S1024x2048_S1024 (.inl rfl) rfl (ix1 p)).trans (by
    show (Finset.univ : Finset (Fin 2048)).fold max start (fun e => s (reduces_S1024x2048_S1024.lift (ix1 p) e)) = _
    unfold rowMax
    refine congrArg (fun f => (Finset.univ : Finset (Fin 2048)).fold max start f) (funext fun e => ?_)
    exact congrArg s (funext fun a => Fin.ext (by match a with | ⟨0, _⟩ => rfl | ⟨1, _⟩ => rfl)))

/-- A row's sum. -/
theorem rowSum_at (x : FVec Ideal S1024x2048 .f32) (p : Fin 1024) :
    multiReduction .add [1] S1024 x 0x00000000#32 reduces_S1024x2048_S1024 (.inl rfl) rfl (ix1 p)
      = ∑ e : Fin 2048, x (ix2 p e) :=
  (Ideal.multiReduction_add_single x 0x00000000#32 reduces_S1024x2048_S1024 (.inl rfl) rfl (ix1 p)).trans (by
    show ∑ e : Fin 2048, x (reduces_S1024x2048_S1024.lift (ix1 p) e) = _
    refine Finset.sum_congr rfl fun e _ => ?_
    exact congrArg x (funext fun a => Fin.ext (by match a with | ⟨0, _⟩ => rfl | ⟨1, _⟩ => rfl)))

/-- Each entry less its row's maximum, exponentiated. -/
def shifted (s : FVec Ideal S1024x2048 .f32) : FVec Ideal S1024x2048 .f32 :=
  exp (subf s (broadcastTo S1024x2048 (shapeCast S1024x1
    (multiReduction .maximumf [1] S1024 s 0xFF800000#32 reduces_S1024x2048_S1024 (.inl rfl) rfl)
    shapeCasts_S1024_S1024x1) broadcasts_S1024x1_S1024x2048))

/-- Each entry over its row's sum. -/
def normalized (x : FVec Ideal S1024x2048 .f32) : FVec Ideal S1024x2048 .f32 :=
  divf x (broadcastTo S1024x2048 (shapeCast S1024x1
    (multiReduction .add [1] S1024 x 0x00000000#32 reduces_S1024x2048_S1024 (.inl rfl) rfl)
    shapeCasts_S1024_S1024x1) broadcasts_S1024x1_S1024x2048)

theorem shifted_at (s : FVec Ideal S1024x2048 .f32) (p : Fin 1024) (e : Fin 2048) :
    shifted s (ix2 p e) = rowExp start (fun e' => s (ix2 p e')) e := by
  unfold shifted
  exact congrArg (fun z => Ideal.exp (s (ix2 p e) - z)) ((column_at _ p e).trans (rowMax_at s p))

theorem normalized_at (x : FVec Ideal S1024x2048 .f32) (p : Fin 1024) (e : Fin 2048) :
    normalized x (ix2 p e) = Ideal.div (x (ix2 p e)) (∑ e' : Fin 2048, x (ix2 p e')) := by
  unfold normalized
  exact congrArg (fun z => Ideal.div (x (ix2 p e)) z) ((column_at _ p e).trans (rowSum_at x p))

/-! ## The two payloads -/

/-- The weight payload is the softmax chain over the logits. -/
theorem pay1_eq (P0 : Vec Ideal S1x1x1024x64 .f32) (P1 : Vec Ideal S1x1x2048x64 .f32) (P2 : Vec Ideal S1x1024x2048 .f32) :
    k0_pay1 (F := Ideal) P0 P1 P2 = normalized (shifted (logits P0 P1 P2)) := rfl

/-- The weight block at `(p, e)`: the softmax of row `p`'s logits, at `e`. -/
theorem pay1_at (P0 : Vec Ideal S1x1x1024x64 .f32) (P1 : Vec Ideal S1x1x2048x64 .f32) (P2 : Vec Ideal S1x1024x2048 .f32)
    (p : Fin 1024) (e : Fin 2048) :
    k0_pay1 (F := Ideal) P0 P1 P2 (ix2 p e) = rowSoftmax start (blockLogit P0 P1 P2 p) e := by
  have hrow : (fun e' => logits P0 P1 P2 (ix2 p e')) = blockLogit P0 P1 P2 p :=
    funext fun e' => logits_at P0 P1 P2 p e'
  rw [pay1_eq, normalized_at]
  unfold rowSoftmax
  simp only [shifted_at, hrow]

/-- The output block at `(0, 0, p, d)`: the weights of row `p` against column `d` of the value block. -/
theorem pay3_at (P0 : Vec Ideal S1x1x1024x64 .f32) (P1 : Vec Ideal S1x1x2048x64 .f32) (P2 : Vec Ideal S1x1024x2048 .f32)
    (P3 : Vec Ideal S1x1x2048x64 .f32) (u v : Fin 1) (p : Fin 1024) (d : Fin 64) :
    k0_pay3 (F := Ideal) P0 P1 P2 P3 (ix4 u v p d)
      = ∑ e : Fin 2048, rowSoftmax start (blockLogit P0 P1 P2 p) e * P3 (ix4 (0 : Fin 1) (0 : Fin 1) e d) := by
  unfold k0_pay3
  refine (cast_ab_11ab_apply _ shapeCasts_S1024x64_S1x1x1024x64 u v p d).trans ?_
  refine (Cert.LibRowwise.matmul_zero_apply dot_S1024x2048_S2048x64_S1024x64_1_0_0_1_n_n rfl rfl pv_l0 pv_l1 pv_r0 pv_r1 none
    (k0_pay1 (F := Ideal) P0 P1 P2) (shapeCast S2048x64 P3 shapeCasts_S1x1x2048x64_S2048x64) p d).trans ?_
  refine Finset.sum_congr rfl fun e _ => ?_
  rw [pay1_at, cast_11ab_ab_apply]

end Cert.KernelIdeal.Payload

end
-- ==== Proof.Blocks.lean ====
/-
  From blocks to arrays: what the kernel's two result arrays hold after the run, as whole-array functions of the
  argument arrays.

  The grid is `(batch, tile, head)`; at a point the output windows sit at block `(batch, head, tile, 0)` of their
  arrays, the query window likewise, the key and value windows at `(batch, head, 0, 0)`, the mask window at
  `(batch, tile, 0)` (decided over the 64 points).  An entry of a block sits at block index × block size + its
  coordinate inside the block, so row `p` of the tile is query row `tile · 1024 + p`, and the blocks the body loads
  are the rows of `Q`, all of `K` and `V`, and the rows of the mask that the attention of those query rows reads.
  Hence each point writes back its block of `scores` and of `outputs`; every index of either array lies in the block
  of the point `(batch, row / 1024, head)`, so the arrays end as `scores` and `outputs` whole.
-/
import proofs.«169565_j69466801045769_2_alg».proof.Proof.Gen.KernelIdeal.Value
import proofs.«169565_j69466801045769_2_alg».proof.Proof.Payload

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Attn Cert.KernelIdeal.Payload
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The index maps, decided over the grid -/

/-- The score window's block index is `(batch, head, tile, 0)`, each in range. -/
theorem bounds5 : ∀ t : Fin cfg0.N, win0_5.index t (0 : Fin 4) ≤ 1 ∧ win0_5.index t (1 : Fin 4) ≤ 15
    ∧ win0_5.index t (2 : Fin 4) ≤ 1 ∧ win0_5.index t (3 : Fin 4) = 0 :=
  (by decide +kernel : ∀ t : Fin grid0.N, _)

/-- The query window moves with the score window. -/
theorem idx0 : ∀ t : Fin cfg0.N, win0_0.index t (0 : Fin 4) = win0_5.index t (0 : Fin 4)
    ∧ win0_0.index t (1 : Fin 4) = win0_5.index t (1 : Fin 4) ∧ win0_0.index t (2 : Fin 4) = win0_5.index t (2 : Fin 4)
    ∧ win0_0.index t (3 : Fin 4) = 0 :=
  (by decide +kernel : ∀ t : Fin grid0.N, _)

/-- The key window: the score window's batch and head, the whole of the other two axes. -/
theorem idx1 : ∀ t : Fin cfg0.N, win0_1.index t (0 : Fin 4) = win0_5.index t (0 : Fin 4)
    ∧ win0_1.index t (1 : Fin 4) = win0_5.index t (1 : Fin 4) ∧ win0_1.index t (2 : Fin 4) = 0
    ∧ win0_1.index t (3 : Fin 4) = 0 :=
  (by decide +kernel : ∀ t : Fin grid0.N, _)

/-- The value window likewise. -/
theorem idx2 : ∀ t : Fin cfg0.N, win0_2.index t (0 : Fin 4) = win0_5.index t (0 : Fin 4)
    ∧ win0_2.index t (1 : Fin 4) = win0_5.index t (1 : Fin 4) ∧ win0_2.index t (2 : Fin 4) = 0
    ∧ win0_2.index t (3 : Fin 4) = 0 :=
  (by decide +kernel : ∀ t : Fin grid0.N, _)

/-- The mask window: the score window's batch and tile. -/
theorem idx3 : ∀ t : Fin cfg0.N, win0_3.index t (0 : Fin 3) = win0_5.index t (0 : Fin 4)
    ∧ win0_3.index t (1 : Fin 3) = win0_5.index t (2 : Fin 4) ∧ win0_3.index t (2 : Fin 3) = 0 :=
  (by decide +kernel : ∀ t : Fin grid0.N, _)

/-- The output window moves with the score window. -/
theorem idx4 : ∀ t : Fin cfg0.N, win0_4.index t (0 : Fin 4) = win0_5.index t (0 : Fin 4)
    ∧ win0_4.index t (1 : Fin 4) = win0_5.index t (1 : Fin 4) ∧ win0_4.index t (2 : Fin 4) = win0_5.index t (2 : Fin 4)
    ∧ win0_4.index t (3 : Fin 4) = 0 :=
  (by decide +kernel : ∀ t : Fin grid0.N, _)

/-- Every `(batch, head, tile)` is some point's. -/
theorem onto5 : ∀ (q0 : Fin 2) (q1 : Fin 16) (q2 : Fin 2), ∃ t : Fin cfg0.N, win0_5.index t = ![q0.val, q1.val, q2.val, 0] :=
  (by decide +kernel : ∀ (q0 : Fin 2) (q1 : Fin 16) (q2 : Fin 2), ∃ t : Fin grid0.N, win0_5.index t = ![q0.val, q1.val, q2.val, 0])

/-- A point's batch. -/
def pb (t : Fin cfg0.N) : Fin 2 := ⟨win0_5.index t (0 : Fin 4), by have := (bounds5 t).1; omega⟩
/-- A point's head. -/
def ph (t : Fin cfg0.N) : Fin 16 := ⟨win0_5.index t (1 : Fin 4), by have := (bounds5 t).2.1; omega⟩
/-- The query row of a point's tile row `p`. -/
def row (t : Fin cfg0.N) (p : Fin 1024) : Fin 2048 :=
  ⟨win0_5.index t (2 : Fin 4) * 1024 + p.val, by have := (bounds5 t).2.2.1; have := p.isLt; omega⟩

/-! ## The blocks a point loads -/

theorem readQ (c : Dev nD) (t : Fin cfg0.N) (p : Fin 1024) (j : Fin 64) :
    iblk m c 0 t (ix4 (0 : Fin 1) (0 : Fin 1) p j) = V m c main_arg0 (ix4 (pb t) (ph t) (row t p) j) := by
  show V m c main_arg0 (((cfg0.win 0).blk t).view.emb (ix4 (0 : Fin 1) (0 : Fin 1) p j)) = _
  refine congrArg (V m c main_arg0) (funext fun a => Fin.ext ?_)
  obtain ⟨e0, e1, e2, e3⟩ := idx0 t
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 1024 + 1 * p.val = win0_5.index t (2 : Fin 4) * 1024 + p.val; omega
  | ⟨3, _⟩ => show win0_0.index t (3 : Fin 4) * 64 + 1 * j.val = j.val; omega

theorem readK (c : Dev nD) (t : Fin cfg0.N) (e : Fin 2048) (j : Fin 64) :
    iblk m c 1 t (ix4 (0 : Fin 1) (0 : Fin 1) e j) = V m c main_arg1 (ix4 (pb t) (ph t) e j) := by
  show V m c main_arg1 (((cfg0.win 1).blk t).view.emb (ix4 (0 : Fin 1) (0 : Fin 1) e j)) = _
  refine congrArg (V m c main_arg1) (funext fun a => Fin.ext ?_)
  obtain ⟨e0, e1, e2, e3⟩ := idx1 t
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * e.val = e.val; omega
  | ⟨3, _⟩ => show win0_1.index t (3 : Fin 4) * 64 + 1 * j.val = j.val; omega

theorem readV (c : Dev nD) (t : Fin cfg0.N) (e : Fin 2048) (d : Fin 64) :
    iblk m c 2 t (ix4 (0 : Fin 1) (0 : Fin 1) e d) = V m c main_arg2 (ix4 (pb t) (ph t) e d) := by
  show V m c main_arg2 (((cfg0.win 2).blk t).view.emb (ix4 (0 : Fin 1) (0 : Fin 1) e d)) = _
  refine congrArg (V m c main_arg2) (funext fun a => Fin.ext ?_)
  obtain ⟨e0, e1, e2, e3⟩ := idx2 t
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * e.val = e.val; omega
  | ⟨3, _⟩ => show win0_2.index t (3 : Fin 4) * 64 + 1 * d.val = d.val; omega

theorem readM (c : Dev nD) (t : Fin cfg0.N) (p : Fin 1024) (e : Fin 2048) :
    iblk m c 3 t (ix3 (0 : Fin 1) p e) = V m c main_arg3 (ix3 (pb t) (row t p) e) := by
  show V m c main_arg3 (((cfg0.win 3).blk t).view.emb (ix3 (0 : Fin 1) p e)) = _
  refine congrArg (V m c main_arg3) (funext fun a => Fin.ext ?_)
  obtain ⟨e0, e1, e2⟩ := idx3 t
  match a with
  | ⟨0, _⟩ => show win0_3.index t (0 : Fin 3) * 1 + 1 * 0 = win0_5.index t (0 : Fin 4); omega
  | ⟨1, _⟩ => show win0_3.index t (1 : Fin 3) * 1024 + 1 * p.val = win0_5.index t (2 : Fin 4) * 1024 + p.val; omega
  | ⟨2, _⟩ => show win0_3.index t (2 : Fin 3) * 2048 + 1 * e.val = e.val; omega

/-- The softmax of a tile row's logits is the attention weight of its query row. -/
theorem softmax_point (c : Dev nD) (t : Fin cfg0.N) (p : Fin 1024) (e : Fin 2048) :
    rowSoftmax start (blockLogit (iblk m c 0 t) (iblk m c 1 t) (iblk m c 3 t) p) e
      = weight (V m c main_arg0) (V m c main_arg1) (V m c main_arg3) (pb t) (ph t) (row t p) e := by
  unfold weight
  refine congrArg (fun f => rowSoftmax start f e) (funext fun e' => ?_)
  unfold blockLogit logit
  rw [readM m c t p e']
  refine congrArg (fun s => s * Ideal.ofBits .f32 0x3E000000#32 * V m c main_arg3 (ix3 (pb t) (row t p) e'))
    (Finset.sum_congr rfl fun j _ => ?_)
  rw [readQ m c t p j, readK m c t e' j]

/-! ## What a point writes back -/

/-- The score block the body leaves, from its loads. -/
theorem out5_at (x0 : Vec Ideal S1x1x1024x64 .f32) (x1 x2 : Vec Ideal S1x1x2048x64 .f32) (x3 : Vec Ideal S1x1024x2048 .f32)
    (y : S1x1x1024x2048.Idx) : out0_5 (F := Ideal) x0 x1 x2 x3 y = k0_pay1 (F := Ideal) x0 x1 x3 (Value.ix5_0 y) := by
  unfold out0_5
  simp only [View.ld_unit_zero (S := S1x1x1024x64) hz4, View.ld_unit_zero (S := S1x1x2048x64) hz4,
    View.ld_unit_zero (S := S1x1024x2048) hz3]
  exact Value.canon5_eq x0 x1 x3 y

/-- The output block the body leaves, from its loads. -/
theorem out4_at (x0 : Vec Ideal S1x1x1024x64 .f32) (x1 x2 : Vec Ideal S1x1x2048x64 .f32) (x3 : Vec Ideal S1x1024x2048 .f32) :
    out0_4 (F := Ideal) x0 x1 x2 x3 = k0_pay3 (F := Ideal) x0 x1 x3 x2 := by
  unfold out0_4
  rw [View.canon_unit_zero hz4]
  simp only [View.ld_unit_zero (S := S1x1x1024x64) hz4, View.ld_unit_zero (S := S1x1x2048x64) hz4,
    View.ld_unit_zero (S := S1x1024x2048) hz3]

theorem score_point (c : Dev nD) (t : Fin cfg0.N) (y : S1x1x1024x2048.Idx) :
    out0_5 (F := Ideal) (iblk m c 0 t) (iblk m c 1 t) (iblk m c 2 t) (iblk m c 3 t) y
      = scores (V m c main_arg0) (V m c main_arg1) (V m c main_arg3) (((cfg0.win 5).blk t).view.emb y) := by
  obtain ⟨u, v, p, e, rfl⟩ : ∃ (u v : Fin 1) (p : Fin 1024) (e : Fin 2048), y = ix4 u v p e :=
    ⟨y 0, y 1, y 2, y 3, eq_ix4 y⟩
  refine (out5_at (iblk m c 0 t) (iblk m c 1 t) (iblk m c 2 t) (iblk m c 3 t) (ix4 u v p e)).trans ?_
  have hix : Value.ix5_0 (ix4 u v p e) = ix2 p e := funext fun a => Fin.ext (by
    match a with | ⟨0, _⟩ => rfl | ⟨1, _⟩ => rfl)
  rw [hix]
  refine (pay1_at (iblk m c 0 t) (iblk m c 1 t) (iblk m c 3 t) p e).trans ?_
  refine (softmax_point m c t p e).trans ?_
  have hemb : ((cfg0.win 5).blk t).view.emb (ix4 u v p e) = ix4 (pb t) (ph t) (row t p) e :=
    funext fun a => Fin.ext (by
      obtain ⟨b0, b1, b2, b3⟩ := bounds5 t
      have hu : u.val = 0 := by omega
      have hv : v.val = 0 := by omega
      match a with
      | ⟨0, _⟩ => show win0_5.index t (0 : Fin 4) * 1 + 1 * u.val = win0_5.index t (0 : Fin 4); omega
      | ⟨1, _⟩ => show win0_5.index t (1 : Fin 4) * 1 + 1 * v.val = win0_5.index t (1 : Fin 4); omega
      | ⟨2, _⟩ => show win0_5.index t (2 : Fin 4) * 1024 + 1 * p.val = win0_5.index t (2 : Fin 4) * 1024 + p.val; omega
      | ⟨3, _⟩ => show win0_5.index t (3 : Fin 4) * 2048 + 1 * e.val = e.val; omega)
  rw [hemb, scores_ix]

theorem output_point (c : Dev nD) (t : Fin cfg0.N) (y : S1x1x1024x64.Idx) :
    out0_4 (F := Ideal) (iblk m c 0 t) (iblk m c 1 t) (iblk m c 2 t) (iblk m c 3 t) y
      = outputs (V m c main_arg0) (V m c main_arg1) (V m c main_arg2) (V m c main_arg3) (((cfg0.win 4).blk t).view.emb y) := by
  obtain ⟨u, v, p, d, rfl⟩ : ∃ (u v : Fin 1) (p : Fin 1024) (d : Fin 64), y = ix4 u v p d :=
    ⟨y 0, y 1, y 2, y 3, eq_ix4 y⟩
  refine (congrFun (out4_at (iblk m c 0 t) (iblk m c 1 t) (iblk m c 2 t) (iblk m c 3 t)) (ix4 u v p d)).trans ?_
  refine (pay3_at (iblk m c 0 t) (iblk m c 1 t) (iblk m c 3 t) (iblk m c 2 t) u v p d).trans ?_
  have hemb : ((cfg0.win 4).blk t).view.emb (ix4 u v p d) = ix4 (pb t) (ph t) (row t p) d :=
    funext fun a => Fin.ext (by
      obtain ⟨e0, e1, e2, e3⟩ := idx4 t
      have hu : u.val = 0 := by omega
      have hv : v.val = 0 := by omega
      match a with
      | ⟨0, _⟩ => show win0_4.index t (0 : Fin 4) * 1 + 1 * u.val = win0_5.index t (0 : Fin 4); omega
      | ⟨1, _⟩ => show win0_4.index t (1 : Fin 4) * 1 + 1 * v.val = win0_5.index t (1 : Fin 4); omega
      | ⟨2, _⟩ => show win0_4.index t (2 : Fin 4) * 1024 + 1 * p.val = win0_5.index t (2 : Fin 4) * 1024 + p.val; omega
      | ⟨3, _⟩ => show win0_4.index t (3 : Fin 4) * 64 + 1 * d.val = d.val; omega)
  rw [hemb, outputs_ix]
  unfold attended
  refine Finset.sum_congr rfl fun e _ => ?_
  rw [softmax_point m c t p e, readV m c t e d]

/-- Point `t` writes back block `t` of `scores`. -/
theorem flushed5_eq (c : Dev nD) (t : Fin cfg0.N) :
    (dats m 0 c).flushed 5 t
      = ((cfg0.win 5).blk t).view.read (Elt Ideal) (scores (V m c main_arg0) (V m c main_arg1) (V m c main_arg3)) := by
  rw [Value.flushed5]
  funext y
  exact score_point m c t y

/-- Point `t` writes back block `t` of `outputs`. -/
theorem flushed4_eq (c : Dev nD) (t : Fin cfg0.N) :
    (dats m 0 c).flushed 4 t
      = ((cfg0.win 4).blk t).view.read (Elt Ideal)
          (outputs (V m c main_arg0) (V m c main_arg1) (V m c main_arg2) (V m c main_arg3)) := by
  rw [Value.flushed4]
  funext y
  exact output_point m c t y

/-! ## The blocks cover the arrays -/

theorem mem_blk5 (t : Fin cfg0.N) (i : S2x16x2048x2048.Idx) :
    i ∈ ((cfg0.win 5).blk t).view.set ↔ ∀ a : Fin 4, win0_5.index t a * S1x1x1024x2048.size a ≤ (i a).val
      ∧ (i a).val < win0_5.index t a * S1x1x1024x2048.size a + S1x1x1024x2048.size a := by
  show i ∈ ((View.whole main_v0_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v0_0).slice (win0_4.rect t)).set ↔ _
  rw [View.set_slice_whole, Rect.mem_set_unit]
  exact Iff.rfl

/-- Every index of the score array is in the block of the point of its batch, head and row's tile. -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := onto5 ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- Every index of the output array likewise. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := onto5 ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  obtain ⟨e0, e1, e2, e3⟩ := idx4 t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The arrays after the run -/

theorem final5 (c : Dev nD) :
    (dats m 0 c).arrAt 5 cfg0.N = scores (V m c main_arg0) (V m c main_arg1) (V m c main_arg3) :=
  (dats m 0 c).arrAt_eq_of_cover 5 (scores (V m c main_arg0) (V m c main_arg1) (V m c main_arg3))
    (fun t _ => flushed5_eq m c t) cover5

theorem final4 (c : Dev nD) :
    (dats m 0 c).arrAt 4 cfg0.N = outputs (V m c main_arg0) (V m c main_arg1) (V m c main_arg2) (V m c main_arg3) :=
  (dats m 0 c).arrAt_eq_of_cover 4 (outputs (V m c main_arg0) (V m c main_arg1) (V m c main_arg2) (V m c main_arg3))
    (fun t _ => flushed4_eq m c t) cover4

/-- The kernel's run: the two results at `outputs` and `scores` of the arguments, the arguments unchanged. -/
theorem run : θ_run defs (onTc (τ := τ) (main (F := Ideal))) ⟨m, fun _ => 0, ρ⟩ fun r => ∀ c : Dev nD,
      r.2.mem ((c : Thread nD τ).loc main_v0_0)
        = outputs (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = scores (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.RefValue.lean ====
/-
  The reference computes attention: each of its stages, read at an index written by its coordinates, is the
  corresponding quantity of `Cert.Attn`.

  The product `Q·Kᵀ` at `(b,h,r,e)` is the sum over the head dimension; its quotient by `√64` is the product with
  `1/8` (`scale_eq`); the mask is broadcast over the heads, so it is read at `(b,r,e)`.  The row maximum is a fold of
  `max` over the keys from the value of `-∞`'s pattern, and a further maximum with that same value changes nothing.
  The shifted exponentials are summed from `0`, each weight is an exponential over that sum, and the output is the
  sum over the keys of weight times value.
-/
import proofs.«169565_j69466801045769_2_alg».proof.Proof.Gen.ReferenceIdeal.Read
import proofs.«169565_j69466801045769_2_alg».proof.Proof.Attention

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S2x16x2048x64, .f32⟩ : BufTy).Contents (Elt Ideal))
  (x3 : (⟨S2x2048x2048, .f32⟩ : BufTy).Contents (Elt Ideal))

/-- The masked, scaled product at `(b,h,r,e)` is the logit. -/
theorem logit_at (b : Fin 2) (h : Fin 16) (r e : Fin 2048) :
    val_main_v6 (F := Ideal) x0 x1 x3 (ix4 b h r e) = logit x0 x1 x3 b h r e := by
  rw [val_main_v6_apply, val_main_v3_apply, val_main_v0_apply, val_main_v2_apply, val_main_v1_apply,
    val_main_cst_apply, val_main_v5_apply, val_main_v4_apply]
  have el : ∀ k : Fin 64, lidx_main_v0 (ix4 b h r e) k = ix4 b h r k := fun k => funext fun a => Fin.ext (by
    match a with | ⟨0, _⟩ => rfl | ⟨1, _⟩ => rfl | ⟨2, _⟩ => rfl | ⟨3, _⟩ => rfl)
  have er : ∀ k : Fin 64, ridx_main_v0 (ix4 b h r e) k = ix4 b h e k := fun k => funext fun a => Fin.ext (by
    match a with | ⟨0, _⟩ => rfl | ⟨1, _⟩ => rfl | ⟨2, _⟩ => rfl | ⟨3, _⟩ => rfl)
  have em : idx_main_v4 (idx_main_v5 (ix4 b h r e)) = ix3 b r e := funext fun a => Fin.ext (by
    match a with | ⟨0, _⟩ => rfl | ⟨1, _⟩ => rfl | ⟨2, _⟩ => rfl)
  simp only [el, er, em]
  unfold logit
  rw [scale_eq]
  rfl

/-- The row maximum at `(b,h,r)`: the fold of `max` over the keys' logits. -/
theorem rowmax_at (b : Fin 2) (h : Fin 16) (r : Fin 2048) :
    val_main_v9 (F := Ideal) x0 x1 x3 (ix3 b h r) = rowMax start (logit x0 x1 x3 b h r) := by
  have h7 : val_main_v7 (F := Ideal) x0 x1 x3 (ix3 b h r) = rowMax start (logit x0 x1 x3 b h r) := by
    unfold val_main_v7
    have hfun : ∀ e : Fin 2048, val_main_v6 (F := Ideal) x0 x1 x3 (ix4 b h r e) = logit x0 x1 x3 b h r e :=
      logit_at x0 x1 x3 b h r
    generalize val_main_v6 (F := Ideal) x0 x1 x3 = y at hfun ⊢
    refine (Host.reduce_eq_fold_single (α := Ideal .f32) (FloatOps.maximumf (F := Ideal) (φ := .f32)) y
      (val_main_cst_0 (F := Ideal)) reducesTo_S2x16x2048x2048_S2x16x2048_d3 (by decide) h_S_ (ix3 b h r)).trans ?_
    show (Finset.univ : Finset (Fin 2048)).fold max start
        (fun e => y ((by decide : S2x16x2048x2048.Reduces [3] S2x16x2048).lift (ix3 b h r) e)) = _
    unfold rowMax
    refine congrArg (fun f => (Finset.univ : Finset (Fin 2048)).fold max start f) (funext fun e => ?_)
    refine Eq.trans (congrArg y (funext fun a => Fin.ext (by
      match a with | ⟨0, _⟩ => rfl | ⟨1, _⟩ => rfl | ⟨2, _⟩ => rfl | ⟨3, _⟩ => rfl))) (hfun e)
  rw [val_main_v9_apply, val_main_v8_apply, val_main_cst_1_apply, h7]
  exact max_rowMax start _

/-- The shifted exponential at `(b,h,r,e)`. -/
theorem exp_at (b : Fin 2) (h : Fin 16) (r e : Fin 2048) :
    val_main_v13 (F := Ideal) x0 x1 x3 (ix4 b h r e) = rowExp start (logit x0 x1 x3 b h r) e := by
  rw [val_main_v13_apply, val_main_v12_apply, logit_at, val_main_v11_apply, val_main_v10_apply]
  have e1 : idx_main_v10 (idx_main_v11 (ix4 b h r e)) = ix3 b h r := funext fun a => Fin.ext (by
    match a with | ⟨0, _⟩ => rfl | ⟨1, _⟩ => rfl | ⟨2, _⟩ => rfl)
  rw [e1, rowmax_at]
  rfl

/-- The denominator at `(b,h,r)`: the sum over the keys of the shifted exponentials. -/
theorem den_at (b : Fin 2) (h : Fin 16) (r : Fin 2048) :
    val_main_v14 (F := Ideal) x0 x1 x3 (ix3 b h r) = ∑ e : Fin 2048, rowExp start (logit x0 x1 x3 b h r) e := by
  rw [val_main_v14_apply, val_main_cst_2_apply]
  show Ideal.ofBits .f32 0x00000000#32 + _ = _
  rw [Ideal.ofBits_zero_f32, zero_add]
  refine Finset.sum_congr rfl fun e _ => ?_
  have e1 : idx_main_v14 (ix3 b h r) e = ix4 b h r e := funext fun a => Fin.ext (by
    match a with | ⟨0, _⟩ => rfl | ⟨1, _⟩ => rfl | ⟨2, _⟩ => rfl | ⟨3, _⟩ => rfl)
  rw [e1, exp_at]

/-- The weight at `(b,h,r,e)`. -/
theorem weight_at (b : Fin 2) (h : Fin 16) (r e : Fin 2048) :
    val_main_v17 (F := Ideal) x0 x1 x3 (ix4 b h r e) = weight x0 x1 x3 b h r e := by
  rw [val_main_v17_apply, exp_at, val_main_v16_apply, val_main_v15_apply]
  have e1 : idx_main_v15 (idx_main_v16 (ix4 b h r e)) = ix3 b h r := funext fun a => Fin.ext (by
    match a with | ⟨0, _⟩ => rfl | ⟨1, _⟩ => rfl | ⟨2, _⟩ => rfl)
  rw [e1, den_at]
  rfl

/-- The reference's array of weights is `scores`. -/
theorem scores_eq : val_main_v17 (F := Ideal) x0 x1 x3 = scores x0 x1 x3 := by
  funext i
  obtain ⟨b, h, r, e, rfl⟩ : ∃ (b : Fin 2) (h : Fin 16) (r e : Fin 2048), i = ix4 b h r e :=
    ⟨i 0, i 1, i 2, i 3, eq_ix4 i⟩
  rw [weight_at]
  rfl

/-- The reference's output array is `outputs`. -/
theorem outputs_eq : val_main_v18 (F := Ideal) x0 x1 x2 x3 = outputs x0 x1 x2 x3 := by
  funext i
  obtain ⟨b, h, r, d, rfl⟩ : ∃ (b : Fin 2) (h : Fin 16) (r : Fin 2048) (d : Fin 64), i = ix4 b h r d :=
    ⟨i 0, i 1, i 2, i 3, eq_ix4 i⟩
  rw [val_main_v18_apply, outputs_ix]
  unfold attended
  refine Finset.sum_congr rfl fun e _ => ?_
  have el : lidx_main_v18 (ix4 b h r d) e = ix4 b h r e := funext fun a => Fin.ext (by
    match a with | ⟨0, _⟩ => rfl | ⟨1, _⟩ => rfl | ⟨2, _⟩ => rfl | ⟨3, _⟩ => rfl)
  have er : ridx_main_v18 (ix4 b h r d) e = ix4 b h e d := funext fun a => Fin.ext (by
    match a with | ⟨0, _⟩ => rfl | ⟨1, _⟩ => rfl | ⟨2, _⟩ => rfl | ⟨3, _⟩ => rfl)
  rw [el, er, weight_at]

end Cert.ReferenceIdeal.RefValue

end
-- ==== Proof.lean ====
/-
  Scaled, masked dot-product attention: a fused kernel against its reference, on the extended reals.

  Both programs take `Q, K, V : [2,16,2048,64]` and a mask `M : [2,2048,2048]` and return the attended values
  `[2,16,2048,64]` and the attention weights `[2,16,2048,2048]`.  For batch `b`, head `h`, query row `r`:
  the logit against key `e` is `(∑ⱼ Q[b,h,r,j]·K[b,h,e,j]) · s · M[b,r,e]`, the weights are the softmax of the row of
  logits (the row's maximum subtracted before the exponential), the value at `d` is `∑ₑ weight[e]·V[b,h,e,d]`
  (`Cert.Attn.scores`, `Cert.Attn.outputs`).

  The kernel walks a grid of (batch, tile of 1024 query rows, head); a point loads its tile of `Q` and of the mask
  and the head's whole `K` and `V`, and writes its block of both results; the blocks tile the result arrays
  (`Cert.KernelIdeal.Blocks.run`).  The reference computes the same quantities array-wide
  (`Cert.ReferenceIdeal.RefValue`).  The two differ in how they spell the scale: the kernel multiplies by the
  pattern of `1/8`, the reference divides by the square root of the pattern of `64`; these are one function of an
  extended real (`Cert.Attn.scale_eq`).  Nothing else separates them: a product of rows into a zero accumulator and
  a contraction are the same sum, a row reduction and an axis reduction fold over the same entries, and the
  reference's extra maximum with `-∞`'s value is the identity.  No finiteness of the inputs is used.

  The idealization rewrote nothing in the kernel, so there is nothing to preserve; the three frames are the
  generated frame runs (the reference's: its run with the results dropped).
-/
import proofs.«169565_j69466801045769_2_alg».proof.Defs
import proofs.«169565_j69466801045769_2_alg».proof.Proof.Gen.Kernel
import proofs.«169565_j69466801045769_2_alg».proof.Proof.Gen.Kernel.Skeleton
import proofs.«169565_j69466801045769_2_alg».proof.Proof.Gen.Kernel.Launch
import proofs.«169565_j69466801045769_2_alg».proof.Proof.Gen.Kernel.Points
import proofs.«169565_j69466801045769_2_alg».proof.Proof.Gen.Kernel.Frame
import proofs.«169565_j69466801045769_2_alg».proof.Proof.Gen.KernelIdeal
import proofs.«169565_j69466801045769_2_alg».proof.Proof.Gen.KernelIdeal.Skeleton
import proofs.«169565_j69466801045769_2_alg».proof.Proof.Gen.KernelIdeal.Launch
import proofs.«169565_j69466801045769_2_alg».proof.Proof.Gen.KernelIdeal.Points
import proofs.«169565_j69466801045769_2_alg».proof.Proof.Gen.KernelIdeal.Frame
import proofs.«169565_j69466801045769_2_alg».proof.Proof.Gen.ReferenceIdeal
import proofs.«169565_j69466801045769_2_alg».proof.Proof.Gen.Pre_finite_inputs
import proofs.«169565_j69466801045769_2_alg».proof.Proof.Gen.KernelIdeal.Value
import proofs.«169565_j69466801045769_2_alg».proof.Proof.Gen.ReferenceIdeal.Run
import proofs.«169565_j69466801045769_2_alg».proof.Proof.Gen.ReferenceIdeal.Read
import proofs.«169565_j69466801045769_2_alg».proof.Proof.Blocks
import proofs.«169565_j69466801045769_2_alg».proof.Proof.RefValue
import Idealize.ShloMosaic.Adequacy
import Idealize.ShloMosaic.Init

noncomputable section

namespace Cert.Proof

open Idealize.ShloMosaic Idealize.ShloMosaic.TcCoe Idealize.SL.Sem Cert.Kernel

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization changed no operation of the kernel. -/
theorem preserves : Cert.preserves_Kernel_KernelIdeal := by
  unfold Cert.preserves_Kernel_KernelIdeal
  trivial

/-- From memories that agree on the four arguments, both programs end with the attended values at `outputs` and the
    weights at `scores` of those arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.outputs_eq,
      (hagree c).1, (hagree c).2.1, (hagree c).2.2.1, (hagree c).2.2.2]
  · rw [Cert.ReferenceIdeal.Read.val_main_v17_eq, Cert.ReferenceIdeal.RefValue.scores_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
